-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x512 : Shape := ⟨3, ![256, 512, 512]⟩
abbrev S16x512 : Shape := ⟨2, ![16, 512]⟩
abbrev S256 : Shape := ⟨1, ![256]⟩
abbrev S_ : Shape := ⟨0, ![]⟩

class Facts : Prop where
  bcast_S_S256x512x512 : S_.BroadcastsInDim S256x512x512 (![] : Fin 0 → Fin S256x512x512.rank)
  reducesTo_S256x512x512_S_d0_1_2 : S256x512x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S256x512x512 .f32) (main_arg1 : FVec F S16x512 .f32) (main_arg2 : IVec S256 32) : IVec S_ 1 :=
  let main_v0 : FVec F S256x512x512 .f32 := Host.absf main_arg0
  let main_cst : FVec F S_ .f32 := constant S_ .f32 0x7F800000#32
  let main_v1 : FVec F S256x512x512 .f32 := broadcastInDim S256x512x512 ![] bcast_S_S256x512x512 main_cst
  let main_v2 : IVec S256x512x512 1 := cmpf .olt main_v0 main_v1
  let main_c : IVec S_ 1 := constantI S_ 1 1#1
  let main_v3 : IVec S_ 1 := (fun x v => Host.reduce IntOp.andi x v reducesTo_S256x512x512_S_d0_1_2 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  main_v8
-- ==== Kernel.lean ====
abbrev S256x512x512 : Shape := ⟨3, ![256, 512, 512]⟩
abbrev S16x512 : Shape := ⟨2, ![16, 512]⟩
abbrev S256 : Shape := ⟨1, ![256]⟩
abbrev S_ : Shape := ⟨0, ![]⟩
abbrev S256x1 : Shape := ⟨2, ![256, 1]⟩
abbrev S256x512 : Shape := ⟨2, ![256, 512]⟩
abbrev S1x1 : Shape := ⟨2, ![1, 1]⟩
abbrev S16x512x512 : Shape := ⟨3, ![16, 512, 512]⟩
abbrev S16 : Shape := ⟨1, ![16]⟩
abbrev S16x1 : Shape := ⟨2, ![16, 1]⟩
abbrev S1 : Shape := ⟨1, ![1]⟩

abbrev nBuf : Space → Nat
  | .hbm => 37
  | .vmem => 6
  | .smem => 0
  | _ => 0

abbrev bufTy : (tb : Table) → Fin (tcTables nBuf tb) → BufTy
  | .hbm, ⟨0, _⟩ => ⟨S256x512x512, .f32⟩
  | .hbm, ⟨1, _⟩ => ⟨S16x512, .f32⟩
  | .hbm, ⟨2, _⟩ => ⟨S256, .i32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x512, .f32⟩
  | .hbm, ⟨23, _⟩ => ⟨S256x1, .i1⟩
  | .hbm, ⟨24, _⟩ => ⟨S256x1, .f32⟩
  | .hbm, ⟨25, _⟩ => ⟨S256x512, .f32⟩
  | .hbm, ⟨26, _⟩ => ⟨S256x512, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S16x512x512, .f32⟩
  | .local _ .vmem, ⟨1, _⟩ => ⟨S16x512x512, .f32⟩
  | .local _ .vmem, ⟨2, _⟩ => ⟨S16x512, .f32⟩
  | .local _ .vmem, ⟨3, _⟩ => ⟨S16x512, .f32⟩
  | .local _ .vmem, ⟨4, _⟩ => ⟨S1x1, .f32⟩
  | .local _ .vmem, ⟨5, _⟩ => ⟨S1x1, .f32⟩
  | _, _ => ⟨S256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_v4 : Ref sig .tc := ⟨.hbm, 16, rfl⟩
abbrev main_c_3 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x512x512_S16x512x512_0_0_0 : ∀ a, (![0, 0, 0] : Fin 3 → Nat) a + S16x512x512.size a ≤ S16x512x512.size a
  h_S16x512x512 : 0 < S16x512x512.numel
  reduces_S16x512x512_S16x512 : S16x512x512.Reduces [1] S16x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  reduces_S16x512_S16 : S16x512.Reduces [1] S16
  shapeCasts_S16_S16x1 : S16.ShapeCasts S16x1
  reduces_S16x1_S1 : S16x1.Reduces [0] S1
  shapeCasts_S1_S1x1 : S1.ShapeCasts S1x1
  shapeCasts_S1x1_S_ : S1x1.ShapeCasts S_
  reducesTo_S256x512_S_d0_1 : S256x512.ReducesTo [0, 1] S_
  h_S_ : 0 < S_.numel
  gather_S16x512_S256x1_S256x512_1_0_n_n_0_1_1512_wf : GatherDims.WF S16x512 S256x1 S256x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x512.size a ≤ S256x512x512.size a
  hwx0_0 : ∀ i : grid0.Coords, EltTy.bits .f32 = 32 ∨ (Rect.block (s := S256x512x512) S16x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S256x512.size a
  hwx0_1 : ∀ i : grid0.Coords, EltTy.bits .f32 = 32 ∨ (Rect.block (s := S256x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S16x512_S256x1_S256x512_1_0_n_n_0_1_1512 : GatherDims S16x512 S256x1 S256x512 where
  offsetDims := [1]
  collapsedSliceDims := [0]
  operandBatchingDims := []
  startIndicesBatchingDims := []
  startIndexMap := [0]
  indexVectorDim := 1
  sliceSizes := ![1, 512]
  wf := gather_S16x512_S256x1_S256x512_1_0_n_n_0_1_1512_wf

abbrev win0_0 : Pipeline.Window sig grid0 :=
  Pipeline.Window.ofSpec (Memref.whole main_arg0) S16x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x512x512 : Shape := ⟨3, ![256, 512, 512]⟩
abbrev S16x512 : Shape := ⟨2, ![16, 512]⟩
abbrev S256 : Shape := ⟨1, ![256]⟩
abbrev S_ : Shape := ⟨0, ![]⟩
abbrev S256x1 : Shape := ⟨2, ![256, 1]⟩
abbrev S256x512 : Shape := ⟨2, ![256, 512]⟩

abbrev nBuf : Space → Nat
  | .hbm => 40
  | .vmem => 0
  | .smem => 0
  | _ => 0

abbrev bufTy : (tb : Table) → Fin (tcTables nBuf tb) → BufTy
  | .hbm, ⟨0, _⟩ => ⟨S256x512x512, .f32⟩
  | .hbm, ⟨1, _⟩ => ⟨S16x512, .f32⟩
  | .hbm, ⟨2, _⟩ => ⟨S256, .i32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x512, .f32⟩
  | .hbm, ⟨23, _⟩ => ⟨S256x1, .i1⟩
  | .hbm, ⟨24, _⟩ => ⟨S256x1, .f32⟩
  | .hbm, ⟨25, _⟩ => ⟨S256x512, .f32⟩
  | .hbm, ⟨26, _⟩ => ⟨S256x512, .f32⟩
  | .hbm, ⟨27, _⟩ => ⟨S_, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_v4 : Ref sig .tc := ⟨.hbm, 16, rfl⟩
abbrev main_c_3 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  reducesTo_S256x512x512_S256x512_d1 : S256x512x512.ReducesTo [1] S256x512
  h_S_ : 0 < S_.numel
  reducesTo_S256x512_S_d0_1 : S256x512.ReducesTo [0, 1] S_
  gather_S16x512_S256x1_S256x512_1_0_n_n_0_1_1512_wf : GatherDims.WF S16x512 S256x1 S256x512 [1] [0] [] [0] [] 1 ![1, 512]

variable [Facts₀]

def gather_S16x512_S256x1_S256x512_1_0_n_n_0_1_1512 : GatherDims S16x512 S256x1 S256x512 where
  offsetDims := [1]
  collapsedSliceDims := [0]
  operandBatchingDims := []
  startIndicesBatchingDims := []
  startIndexMap := [0]
  indexVectorDim := 1
  sliceSizes := ![1, 512]
  wf := gather_S16x512_S256x1_S256x512_1_0_n_n_0_1_1512_wf

class Facts : Prop extends Facts₀ where

variable [Facts]
-- ==== Proof.Pieces.lean ====
/-
  What each control case of the kernel body leaves behind, as a value: whichever of the three cases a grid point is in
  (the first point, which zeroes the accumulator first; a middle point; the last point, which also copies the
  accumulator out), the accumulator ends at the body's one arithmetic payload of the two input blocks and of what the
  accumulator held before (the stored zero at the first point), and at the last point the output block ends at that same
  payload.
-/
import proofs.«181449_j82240033784129_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A middle point: the accumulator holding `s` ends at the payload of the blocks and `s`. -/
theorem sout_B (c : Dev nD) (i : grid0.Coords) (a1 : Memref sig .tc .vmem S16x512x512 .f32) (h1 : a1.IsWhole)
    (a2 : Memref sig .tc .vmem S16x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S16x512x512 .f32) (x1 : Vec F S16x512 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz]
  simp only [View.readAt_eq_ld, h1.read_unread, h2.read_unread, h4.read_unread, View.ld_unit_zero (S := S16x512x512) hz3,
    View.ld_unit_zero (S := S16x512) hz, View.ld_unit_zero (S := S1x1) hz]

/-- The first point: the accumulator is zeroed, read back, and ends at the payload of the blocks and that zero. -/
theorem sout_A (c : Dev nD) (i : grid0.Coords) (a1 : Memref sig .tc .vmem S16x512x512 .f32) (h1 : a1.IsWhole)
    (a2 : Memref sig .tc .vmem S16x512 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S16x512x512 .f32) (x1 : Vec F S16x512 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S16x512x512) hz3,
    View.ld_unit_zero (S := S16x512) hz]

/-- The last point, the accumulator: as at a middle point. -/
theorem sout_C (c : Dev nD) (i : grid0.Coords) (a1 : Memref sig .tc .vmem S16x512x512 .f32) (h1 : a1.IsWhole)
    (a2 : Memref sig .tc .vmem S16x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S16x512x512 .f32) (x1 : Vec F S16x512 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S16x512x512) hz3,
    View.ld_unit_zero (S := S16x512) hz, View.ld_unit_zero (S := S1x1) hz]

/-- The last point, the output block: the accumulator's new contents read back and stored. -/
theorem out_C (c : Dev nD) (i : grid0.Coords) (a1 : Memref sig .tc .vmem S16x512x512 .f32) (h1 : a1.IsWhole)
    (a2 : Memref sig .tc .vmem S16x512 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S16x512x512 .f32) (x1 : Vec F S16x512 .f32) (xs0 : Vec F S1x1 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S16x512x512) hz3,
    View.ld_unit_zero (S := S16x512) hz, View.ld_unit_zero (S := S1x1) hz]

end Cert.KernelIdeal.Pieces

end
-- ==== Proof.LibCol.lean ====
/-
  Columns and rows read at an index: a vector of `a` entries laid out as a column `[a, 1]` or a row `[1, a]`, a column
  repeated along `b` lanes, and the source index of a reduction over the last axis of a two-axis array.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.LibCol

open Idealize.ShloMosaic Idealize.ShloMosaic.ValueIdx

variable {α : Type}

/-- An `[a]` vector cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` repeated along `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's repetition of a column `[a, 1]` along `b` lanes reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a row `[1, a]` reads, at `(u, q)`, the vector at `q`. -/
theorem broadcastInDim_a_1a_apply {a : ℕ} (x : (⟨1, ![a]⟩ : Shape).Idx → α)
    (h : (⟨1, ![a]⟩ : Shape).BroadcastsInDim ⟨2, ![1, a]⟩ ![1]) (u : Fin 1) (q : Fin a) :
    broadcastInDim ⟨2, ![1, a]⟩ ![1] h x (ix2 u q) = x (ix1 q) := by
  refine broadcastInDim_apply ![1] h x (ix2 u q) (ix1 q) fun ax => ?_
  match ax with
  | ⟨0, _⟩ =>
    show q.val = if a = 1 then 0 else q.val
    split
    · have := q.isLt; omega
    · rfl

/-- Reducing a two-axis array over its last axis: the source index over row `p` with lane `k` is `(p, k)`. -/
theorem lift_last {R C : ℕ} (h : (⟨2, ![R, C]⟩ : Shape).Reduces [1] ⟨1, ![R]⟩) (p : Fin R) (k : Fin C) :
    h.lift (ix1 p) k = ix2 p k :=
  funext fun c => Fin.ext (by
    match c with
    | ⟨0, _⟩ => rfl
    | ⟨1, _⟩ => rfl)

/-- Reducing a two-axis array over its first axis: the source index over lane `q` with row `k` is `(k, q)`. -/
theorem lift_first {R C : ℕ} (h : (⟨2, ![R, C]⟩ : Shape).Reduces [0] ⟨1, ![C]⟩) (q : Fin C) (k : Fin R) :
    h.lift (ix1 q) k = ix2 k q :=
  funext fun c => Fin.ext (by
    match c with
    | ⟨0, _⟩ => rfl
    | ⟨1, _⟩ => rfl)

end Cert.LibCol

end
-- ==== Proof.LibAxisSum.lean ====
/-
  A float sum over ONE axis of a small-rank array, read at an index at the exact values: over the middle axis of a
  three-axis array, entry `(a, c)` is the sum over `k` of the entries `(a, k, c)`; over the last axis of a two-axis
  array, entry `p` is the sum over `k` of `(p, k)`; over the first axis, entry `q` is the sum over `k` of `(k, q)`.
-/
import proofs.«181449_j82240033784129_1_alg».proof.Proof.LibCol
import Idealize.ShloMosaic.Lib.ValueIdx
import Idealize.ShloMosaic.PureOps.Ideal.Laws

noncomputable section

namespace Cert.LibAxisSum

open Idealize.ShloMosaic Idealize.ShloMosaic.ValueIdx

/-- Reducing `[A, B, C]` over its middle axis: the source index over `(a, c)` with coordinate `k` is `(a, k, c)`. -/
theorem lift_mid {A B C : ℕ} (h : (⟨3, ![A, B, C]⟩ : Shape).Reduces [1] ⟨2, ![A, C]⟩) (a : Fin A) (c : Fin C) (k : Fin B) :
    h.lift (ix2 a c) k = ix3 a k c :=
  funext fun d => Fin.ext (by
    match d with
    | ⟨0, _⟩ => rfl
    | ⟨1, _⟩ => rfl
    | ⟨2, _⟩ => rfl)

/-- A float sum over the middle axis of `[A, B, C]`: entry `(a, c)` is `∑ k, x (a, k, c)`. -/
theorem multiReduction_add_mid_apply {φ : FTy} {A B C : ℕ} (x : FVec Ideal ⟨3, ![A, B, C]⟩ φ) (acc : BitVec φ.bits)
    (h : (⟨3, ![A, B, C]⟩ : Shape).Reduces [1] ⟨2, ![A, C]⟩) (hφ : FKind.Formats φ) (hacc : acc = FKind.add.neutral φ hφ)
    (a : Fin A) (c : Fin C) :
    multiReduction .add [1] ⟨2, ![A, C]⟩ x acc h hφ hacc (ix2 a c) = ∑ k : Fin B, x (ix3 a k c) :=
  (Ideal.multiReduction_add_single x acc h hφ hacc (ix2 a c)).trans
    (Finset.sum_congr rfl fun k _ => congrArg x (lift_mid h a c k))

/-- A float sum over the last axis of `[R, C]`: entry `p` is `∑ k, x (p, k)`. -/
theorem multiReduction_add_last_apply {φ : FTy} {R C : ℕ} (x : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ)
    (p : Fin R) :
    multiReduction .add [1] ⟨1, ![R]⟩ x acc h hφ hacc (ix1 p) = ∑ k : Fin C, x (ix2 p k) :=
  (Ideal.multiReduction_add_single x acc h hφ hacc (ix1 p)).trans
    (Finset.sum_congr rfl fun k _ => congrArg x (Cert.LibCol.lift_last h p k))

/-- A float sum over the first axis of `[R, C]`: entry `q` is `∑ k, x (k, q)`. -/
theorem multiReduction_add_first_apply {φ : FTy} {R C : ℕ} (x : FVec Ideal ⟨2, ![R, C]⟩ φ) (acc : BitVec φ.bits)
    (h : (⟨2, ![R, C]⟩ : Shape).Reduces [0] ⟨1, ![C]⟩) (hφ : FKind.Formats φ) (hacc : acc = FKind.add.neutral φ hφ)
    (q : Fin C) :
    multiReduction .add [0] ⟨1, ![C]⟩ x acc h hφ hacc (ix1 q) = ∑ k : Fin R, x (ix2 k q) :=
  (Ideal.multiReduction_add_single x acc h hφ hacc (ix1 q)).trans
    (Finset.sum_congr rfl fun k _ => congrArg x (Cert.LibCol.lift_first h q k))

end Cert.LibAxisSum

end
-- ==== Proof.BlockSum.lean ====
/-
  What one grid point adds to the running total: of a block `x` of sixteen 512 × 512 matrices and the matching sixteen
  mask rows `w`, the sum over the rows `a` and the columns `j` of (the column sum `∑ i, x (a, i, j)`) × `w (a, j)`.
  The kernel body's one arithmetic payload is the accumulator's entry plus this number.
-/
import proofs.«181449_j82240033784129_1_alg».proof.Proof.Gen.KernelIdeal.Skeleton
import proofs.«181449_j82240033784129_1_alg».proof.Proof.LibAxisSum
import Idealize.ShloMosaic.Lib.Pipeline.Value

noncomputable section

namespace Cert.KernelIdeal.BlockSum

open Cert.KernelIdeal Cert.KernelIdeal.Gen Idealize.ShloMosaic Idealize.ShloMosaic.ValueIdx

/-- The masked sum of one block: `∑ a j, (∑ i, x (a, i, j)) · w (a, j)`. -/
def blockSum (x : FVec Ideal S16x512x512 .f32) (w : FVec Ideal S16x512 .f32) : EReal :=
  ∑ a : Fin 16, ∑ j : Fin 512, (∑ i : Fin 512, x (ix3 a i j)) * w (ix2 a j)

/-- The column sums of the block times the mask rows, at `(a, j)`. -/
theorem masked_apply (x : FVec Ideal S16x512x512 .f32) (w : FVec Ideal S16x512 .f32)
    (h : S16x512x512.Reduces [1] S16x512) (hφ : FKind.Formats .f32) (hacc : (0x00000000#32 : BitVec 32) = FKind.add.neutral .f32 hφ)
    (hc : S16x512.ShapeCasts S16x512) (a : Fin 16) (j : Fin 512) :
    mulf (multiReduction .add [1] S16x512 x 0x00000000#32 h hφ hacc) (shapeCast S16x512 w hc) (ix2 a j)
      = (∑ i : Fin 512, x (ix3 a i j)) * w (ix2 a j) :=
  congrArg₂ (· * ·) (Cert.LibAxisSum.multiReduction_add_mid_apply x _ h hφ hacc a j)
    (congrFun (shapeCast_self w hc) (ix2 a j))

/-- The body's stored value: the accumulator's entry plus the block's masked sum (the sum over the lanes of each
    row, laid out as a column, then the sum down that column). -/
theorem pay2_apply (x : Vec Ideal S16x512x512 .f32) (w : Vec Ideal S16x512 .f32) (acc : Vec Ideal S1x1 .f32) (p q : Fin 1) :
    k0_pay2 (F := Ideal) x w acc (ix2 p q) = acc (ix2 p q) + blockSum x w := by
  unfold k0_pay2
  refine (congrFun (shapeCast_self _ _) (ix2 p q)).trans ?_
  refine congrArg (acc (ix2 p q) + ·) ?_
  refine (Cert.LibCol.shapeCast_a_a1_apply _ _ p q).trans ?_
  refine (Cert.LibAxisSum.multiReduction_add_first_apply _ _ _ _ _ p).trans ?_
  refine Finset.sum_congr rfl fun a _ => ?_
  refine (Cert.LibCol.shapeCast_a_a1_apply _ _ a p).trans ?_
  refine (Cert.LibAxisSum.multiReduction_add_last_apply _ _ _ _ _ a).trans ?_
  exact Finset.sum_congr rfl fun j _ => masked_apply x w _ _ _ _ a j

/-- The zero the first point stores into the accumulator. -/
theorem pay1_apply (y : S1x1.Idx) : k0_pay1 (F := Ideal) y = Ideal.ofBits .f32 0x00000000#32 := rfl

end Cert.KernelIdeal.BlockSum

end
-- ==== Proof.Accum.lean ====
/-
  The accumulator point by point. After grid point `n` the carried accumulator holds the zero it was reset to plus the
  masked sums of the blocks of points `0 … n`; the output block, stored at the last point only, holds the same number
  for `n = 15`. By induction on the point: each point adds its own block's masked sum to what the point before left.
-/
import proofs.«181449_j82240033784129_1_alg».proof.Proof.Pieces
import proofs.«181449_j82240033784129_1_alg».proof.Proof.BlockSum

noncomputable section

namespace Cert.KernelIdeal.Accum

open Cert.KernelIdeal Cert.KernelIdeal.Gen Cert.KernelIdeal.BlockSum Cert.KernelIdeal.Pieces
open Idealize.ShloMosaic Idealize.ShloMosaic.TcCoe Idealize.ShloMosaic.ValueIdx Idealize.SL.Sem

variable (m : (ℓ : Loc nD τ sig) → Buf (Elt Ideal) ℓ)

/-- The value the accumulator is reset to. -/
abbrev zero : EReal := Ideal.ofBits .f32 0x00000000#32

/-- The body's stored value at any index, from an accumulator that is `r` everywhere. -/
theorem step_val (x : Vec Ideal S16x512x512 .f32) (w : Vec Ideal S16x512 .f32) (s : Vec Ideal S1x1 .f32) (r : EReal)
    (hs : ∀ y, s y = r) (y : S1x1.Idx) : k0_pay2 (F := Ideal) x w s y = r + blockSum x w := by
  obtain ⟨p, q, rfl⟩ : ∃ (p : Fin 1) (q : Fin 1), y = ix2 p q := ⟨y 0, y 1, eq_ix2 y⟩
  exact (pay2_apply x w s p q).trans (congrArg (· + blockSum x w) (hs _))

/-- The masked sum of the blocks the windows stage at point `s` (zero past the grid). -/
def pointSum (c : Dev nD) (s : ℕ) : EReal :=
  if h : s < cfg0.N then blockSum (iblk m c 0 ⟨s, h⟩) (iblk m c 1 ⟨s, h⟩) else 0

theorem pointSum_of_lt (c : Dev nD) (s : ℕ) (h : s < cfg0.N) :
    pointSum m c s = blockSum (iblk m c 0 ⟨s, h⟩) (iblk m c 1 ⟨s, h⟩) := dif_pos h

/-- After point `n` the accumulator holds the reset value plus the masked sums of points `0 … n`. -/
theorem acc_eq (c : Dev nD) : ∀ (n : ℕ) (h : n < cfg0.N) (y : S1x1.Idx),
    (outsAt0 m c n h).2 y = zero + ∑ s ∈ Finset.range (n + 1), pointSum m c s
  | 0, h, y => by
    rw [outsAt0_A m c ⟨0, h⟩ rfl (by dsimp only; omega)]
    dsimp only
    refine (congrFun (sout_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)) y).trans ?_
    refine (step_val (iblk m c 0 ⟨0, h⟩) (iblk m c 1 ⟨0, h⟩) (k0_pay1 (F := Ideal)) zero (fun _ => rfl) y).trans ?_
    rw [Finset.sum_range_one, pointSum_of_lt m c 0 h]
  | n + 1, h, y => by
    have hN : cfg0.N = 16 := N_0
    have h0 : ¬(⟨n + 1, h⟩ : Fin cfg0.N).val % 16 = 0 := by dsimp only; omega
    have ih := acc_eq c n (Nat.lt_of_succ_lt h)
    by_cases h1 : (⟨n + 1, h⟩ : Fin cfg0.N).val % 16 = 15
    · rw [outsAt0_C m c ⟨n + 1, h⟩ h0 h1]
      dsimp only
      refine (congrFun (sout_C (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (iblk m c 0 ⟨n + 1, h⟩)
        (iblk m c 1 ⟨n + 1, h⟩) (outsAt0 m c n (Nat.lt_of_succ_lt h)).2) y).trans ?_
      refine (step_val (iblk m c 0 ⟨n + 1, h⟩) (iblk m c 1 ⟨n + 1, h⟩) (outsAt0 m c n (Nat.lt_of_succ_lt h)).2 _ ih y).trans ?_
      rw [Finset.sum_range_succ _ (n + 1), pointSum_of_lt m c (n + 1) h, add_assoc]
    · rw [outsAt0_B m c ⟨n + 1, h⟩ h0 h1]
      dsimp only
      refine (congrFun (sout_B (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (iblk m c 0 ⟨n + 1, h⟩)
        (iblk m c 1 ⟨n + 1, h⟩) (outsAt0 m c n (Nat.lt_of_succ_lt h)).2) y).trans ?_
      refine (step_val (iblk m c 0 ⟨n + 1, h⟩) (iblk m c 1 ⟨n + 1, h⟩) (outsAt0 m c n (Nat.lt_of_succ_lt h)).2 _ ih y).trans ?_
      rw [Finset.sum_range_succ _ (n + 1), pointSum_of_lt m c (n + 1) h, add_assoc]

/-- The output block after the last point: the reset value plus the masked sums of all sixteen points. -/
theorem out_last (c : Dev nD) (h : 15 < cfg0.N) (y : S1x1.Idx) :
    (outsAt0 m c 15 h).1 y = zero + ∑ s ∈ Finset.range 16, pointSum m c s := by
  have ih := acc_eq m c 14 (Nat.lt_of_succ_lt h)
  rw [outsAt0_C m c ⟨15, h⟩ (by dsimp only; omega) rfl]
  dsimp only
  refine (congrFun (out_C (F := Ideal) c (grid0.coords ⟨15, h⟩) (ms0_0 ⟨15, h⟩) (hs0_0 ⟨15, h⟩) (ms0_1 ⟨15, h⟩)
    (hs0_1 ⟨15, h⟩) (ms0_2 ⟨15, h⟩) (hs0_2 ⟨15, h⟩) scM0_0 (Memref.isWhole_whole _) _ _ (iblk m c 0 ⟨15, h⟩)
    (iblk m c 1 ⟨15, h⟩) (outsAt0 m c 14 (Nat.lt_of_succ_lt h)).2) y).trans ?_
  refine (step_val (iblk m c 0 ⟨15, h⟩) (iblk m c 1 ⟨15, h⟩) (outsAt0 m c 14 (Nat.lt_of_succ_lt h)).2 _ ih y).trans ?_
  rw [Finset.sum_range_succ _ 15, pointSum_of_lt m c 15 h, add_assoc]

end Cert.KernelIdeal.Accum

end
-- ==== Proof.LibRows.lean ====
/-
  Summing over 256 rows sixteen at a time: row `16 t + a` for `t, a < 16` runs over every row exactly once, so a sum
  over the rows is the sum over the sixteen groups of the sums inside each group, in any commutative monoid.
-/
import Mathlib.Algebra.BigOperators.Fin
import Mathlib.Logic.Equiv.Fin.Basic

namespace Cert.LibRows

/-- Row `a` of group `t`: row `16 t + a` of the 256. -/
def row (t a : Fin 16) : Fin 256 := ⟨16 * t.val + a.val, by have := t.isLt; have := a.isLt; omega⟩

theorem row_val (t a : Fin 16) : (row t a).val = 16 * t.val + a.val := rfl

/-- (group, row in group) ↦ row is a bijection onto the 256 rows. -/
def rowEquiv : Fin 16 × Fin 16 ≃ Fin 256 := (finProdFinEquiv : Fin 16 × Fin 16 ≃ Fin (16 * 16))

theorem rowEquiv_apply (p : Fin 16 × Fin 16) : rowEquiv p = row p.1 p.2 :=
  Fin.ext (by show p.2.val + 16 * p.1.val = 16 * p.1.val + p.2.val; omega)

/-- A sum over the 256 rows, group by group. -/
theorem sum_rows {M : Type*} [AddCommMonoid M] (f : Fin 256 → M) :
    ∑ t : Fin 16, ∑ a : Fin 16, f (row t a) = ∑ b : Fin 256, f b := by
  rw [← Equiv.sum_comp rowEquiv f, Fintype.sum_prod_type]
  exact Finset.sum_congr rfl fun t _ => Finset.sum_congr rfl fun a _ => congrArg f (rowEquiv_apply (t, a)).symm

end Cert.LibRows
-- ==== Proof.Total.lean ====
/-
  The number both programs compute before their common last steps: over all 256 matrices `b` and all 512 columns `j`,
  the column sum `∑ i, A (b, i, j)` times the mask entry `M (b, j)`, added up. And those common last steps, as one
  function of that number `L` and of the mask rows `M`: with `n` the sum of all mask entries, `L / n` when `n > 0` and
  `L` otherwise, times one.
-/
import Idealize.ShloMosaic.Lib.ValueIdx
import Idealize.ShloMosaic.PureOps.Ideal

noncomputable section

namespace Cert.Total

open Idealize.ShloMosaic Idealize.ShloMosaic.ValueIdx

/-- `∑ b j, (∑ i, A (b, i, j)) · M (b, j)`. -/
def total (A : FVec Ideal ⟨3, ![256, 512, 512]⟩ .f32) (M : FVec Ideal ⟨2, ![256, 512]⟩ .f32) : EReal :=
  ∑ b : Fin 256, ∑ j : Fin 512, (∑ i : Fin 512, A (ix3 b i j)) * M (ix2 b j)

/-- The last steps both programs share: the masked sum `L` divided by the mask's entry count when that is positive. -/
def lastSteps (h : (⟨2, ![256, 512]⟩ : Shape).ReducesTo [0, 1] ⟨0, ![]⟩) (hS : 0 < (⟨0, ![]⟩ : Shape).numel)
    (L : FVec Ideal ⟨0, ![]⟩ .f32) (M : FVec Ideal ⟨2, ![256, 512]⟩ .f32) : FVec Ideal ⟨0, ![]⟩ .f32 :=
  mulf (constant (F := Ideal) ⟨0, ![]⟩ .f32 0x3F800000#32)
    (select (cmpf .ogt (Host.reduceAdd (F := Ideal) M (constant (F := Ideal) ⟨0, ![]⟩ .f32 0x00000000#32) h hS)
        (constant (F := Ideal) ⟨0, ![]⟩ .f32 0x00000000#32))
      (Host.divf (F := Ideal) L (Host.reduceAdd (F := Ideal) M (constant (F := Ideal) ⟨0, ![]⟩ .f32 0x00000000#32) h hS)) L)

end Cert.Total

end
-- ==== Proof.Blocks.lean ====
/-
  The blocks the two input windows stage at grid point `t` are rows `16 t … 16 t + 15` of the array of matrices and
  of the array of mask rows, so the masked sums of the sixteen points, added, are the masked total over all 256 rows.
-/
import proofs.«181449_j82240033784129_1_alg».proof.Proof.Accum
import proofs.«181449_j82240033784129_1_alg».proof.Proof.LibRows
import proofs.«181449_j82240033784129_1_alg».proof.Proof.Total
import Idealize.ShloMosaic.Lib.Pipeline.Value

noncomputable section

namespace Cert.KernelIdeal.Blocks

open Cert.KernelIdeal Cert.KernelIdeal.Gen Cert.KernelIdeal.BlockSum Cert.KernelIdeal.Accum Cert.LibRows Cert.Total
open Idealize.ShloMosaic Idealize.ShloMosaic.TcCoe Idealize.ShloMosaic.ValueIdx Idealize.SL.Sem

variable (m : (ℓ : Loc nD τ sig) → Buf (Elt Ideal) ℓ)

/-- The matrices window's block index at point `t` is `(t, 0, 0)`; -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- the mask window's is `(t, 0)`. -/
theorem idx1 : ∀ t : Fin cfg0.N, win0_1.index t 0 = t.val ∧ win0_1.index t 1 = 0 :=
  (by decide +kernel : ∀ t : Fin grid0.N, win0_1.index t 0 = t.val ∧ win0_1.index t 1 = 0)

/-- The array of matrices and the array of mask rows as the region finds them. -/
abbrev arrA (c : Dev nD) : FVec Ideal S256x512x512 .f32 := V m c main_arg0
abbrev arrM (c : Dev nD) : FVec Ideal S256x512 .f32 := V m c main_v13

/-- Entry `(a, i, j)` of the matrices block at point `t` is entry `(16 t + a, i, j)` of the array. -/
theorem iblk0_apply (c : Dev nD) (t : Fin cfg0.N) (a : Fin 16) (i j : Fin 512) (b : Fin 256) (hb : b.val = 16 * t.val + a.val) :
    (iblk m c 0 t : Vec Ideal S16x512x512 .f32) (ix3 a i j) = arrA m c (ix3 b i j) := by
  obtain ⟨h0, h1, h2⟩ := idx0 t
  unfold iblk
  rw [View.read_apply]
  show V m c main_arg0 _ = V m c main_arg0 _
  refine congrArg (V m c main_arg0) (funext fun d => Fin.ext ?_)
  match d with
  | ⟨0, _⟩ => show win0_0.index t 0 * 16 + 1 * a.val = b.val; rw [h0, hb]; omega
  | ⟨1, _⟩ => show win0_0.index t 1 * 512 + 1 * i.val = i.val; rw [h1]; omega
  | ⟨2, _⟩ => show win0_0.index t 2 * 512 + 1 * j.val = j.val; rw [h2]; omega

/-- Entry `(a, j)` of the mask block at point `t` is entry `(16 t + a, j)` of the mask array. -/
theorem iblk1_apply (c : Dev nD) (t : Fin cfg0.N) (a : Fin 16) (j : Fin 512) (b : Fin 256) (hb : b.val = 16 * t.val + a.val) :
    (iblk m c 1 t : Vec Ideal S16x512 .f32) (ix2 a j) = arrM m c (ix2 b j) := by
  obtain ⟨h0, h1⟩ := idx1 t
  unfold iblk
  rw [View.read_apply]
  show V m c main_v13 _ = V m c main_v13 _
  refine congrArg (V m c main_v13) (funext fun d => Fin.ext ?_)
  match d with
  | ⟨0, _⟩ => show win0_1.index t 0 * 16 + 1 * a.val = b.val; rw [h0, hb]; omega
  | ⟨1, _⟩ => show win0_1.index t 1 * 512 + 1 * j.val = j.val; rw [h1]; omega

/-- One row's share of the total. -/
def rowTerm (c : Dev nD) (b : Fin 256) : EReal :=
  ∑ j : Fin 512, (∑ i : Fin 512, arrA m c (ix3 b i j)) * arrM m c (ix2 b j)

/-- Point `t`'s masked sum is the shares of rows `16 t … 16 t + 15`. -/
theorem pointSum_eq (c : Dev nD) (t : Fin 16) : pointSum m c t.val = ∑ a : Fin 16, rowTerm m c (row t a) := by
  have ht : t.val < cfg0.N := lt_of_lt_of_eq t.isLt N_0.symm
  rw [pointSum_of_lt m c t.val ht]
  unfold blockSum rowTerm
  refine Finset.sum_congr rfl fun a _ => Finset.sum_congr rfl fun j _ => ?_
  exact congrArg₂ (· * ·) (Finset.sum_congr rfl fun i _ => iblk0_apply m c ⟨t.val, ht⟩ a i j (row t a) rfl)
    (iblk1_apply m c ⟨t.val, ht⟩ a j (row t a) rfl)

/-- The sixteen points' masked sums add up to the masked total over all 256 rows. -/
theorem sum_points (c : Dev nD) : ∑ s ∈ Finset.range 16, pointSum m c s = total (arrA m c) (arrM m c) := by
  rw [← Fin.sum_univ_eq_sum_range (fun s => pointSum m c s) 16]
  refine (Finset.sum_congr rfl fun t _ => pointSum_eq m c t).trans ?_
  exact sum_rows (rowTerm m c)

end Cert.KernelIdeal.Blocks

end
-- ==== Proof.KernelValue.lean ====
/-
  The kernel's program, read: the one output block is written back after the last grid point, holding the reset zero
  plus the masked total of the matrices and the mask rows; the host steps after the region reshape it to a scalar and
  apply the common last steps to it and to the mask rows.
-/
import proofs.«181449_j82240033784129_1_alg».proof.Proof.Blocks
import Idealize.ShloMosaic.Lib.Pipeline.Value
import Idealize.ShloMosaic.Lib.StableHlo.Run

noncomputable section

namespace Cert.KernelIdeal.KernelValue

open Cert.KernelIdeal Cert.KernelIdeal.Gen Cert.KernelIdeal.Accum Cert.KernelIdeal.Blocks Cert.Total
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output array after the region: one entry, the reset zero plus the masked total. -/
abbrev result (c : Dev nD) : Buf (Elt Ideal) ((c : Thread nD τ).loc main_v14) :=
  fun _ => zero + total (arrA m c) (arrM m c)

/-- What the output's staging buffer holds after the last point. -/
theorem after_last (c : Dev nD) (h : 15 < cfg0.N) : (outsAt0 m c 15 h).1 = result m c :=
  funext fun y => (out_last m c h y).trans (congrArg (zero + ·) (sum_points m c))

/-- The one write-back, after the last point, writes it. -/
theorem flushed_eq (c : Dev nD) (t : Fin cfg0.N) (hf : (cfg0.win 2).flush t = true) :
    (dats m 0 c).flushed 2 t = ((cfg0.win 2).blk t).view.read (Elt Ideal) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, show (outsAt0 m c t0_15.val t0_15.isLt).1 = result m c from after_last m c _]
  have hz' : (fun a => win0_2.index t0_15 a * main_v14.ty.shape.size a) = fun _ => 0 := funext fun a => by fin_cases a <;> decide
  exact (Memref.read_access_unit_zero (Elt Ideal) main_v14 hz' (fun a => by rw [congrFun hz' a]; simp) (result m c)).symm

/-- So the output array ends holding it: the last point's block is the whole one-entry array. -/
theorem final_o (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_v14).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- After the region the mask rows' array is as the region found it (an input: never written), -/
theorem tail_mask (c : Dev nD) :
    Pipeline.withArrays (cfgs 0).spec c (V0 m c) (fun w => (dats m 0 c).arrAt w (cfgs 0).N) (Proc.devRef .tc main_v13)
      = arrM m c :=
  (Pipeline.withArrays_arr spec0 launch0.win.arr_inj c _ _ 1).trans (((dats m 0 c).arrAt_in 1 rfl _).trans (A_eq m c 1))

/-- and the output array holds its one entry. -/
theorem tail_out (c : Dev nD) :
    Pipeline.withArrays (cfgs 0).spec c (V0 m c) (fun w => (dats m 0 c).arrAt w (cfgs 0).N) (Proc.devRef .tc main_v14)
      = (fun _ => zero + total (arrA m c) (arrM m c) : Buf (Elt Ideal) ((c : Thread nD τ).loc main_v14)) :=
  (Pipeline.withArrays_arr spec0 launch0.win.arr_inj c _ _ 2).trans (final_o m c)

/-- The program's result after the host steps that follow the region: the common last steps of that entry (reshaped
    to a scalar) and of the mask rows. -/
theorem tail_eq (c : Dev nD) :
    Pipeline.afterTail₀ cfgs (dats m) 0 (V0 m) [hostOps1, hostOps1_1, hostOps1_2] c main_v20
      = lastSteps reducesTo_S256x512_S_d0_1 h_S_ (fun _ => zero + total (arrA m c) (arrM m c)) (arrM m c) := by
  have hM := tail_mask m c
  have hL := tail_out m c
  unfold Pipeline.afterTail₀
  generalize Pipeline.withArrays (cfgs 0).spec c (V0 m c) (fun w => (dats m 0 c).arrAt w (cfgs 0).N) = W at hM hL ⊢
  simp only [hostOps1, hostOps1_1, hostOps1_2, List.flatten_cons, List.flatten_nil, List.append_nil, List.cons_append,
    List.nil_append]
  after_results
  rw [hM, hL]
  generalize total (arrA m c) (arrM m c) = T
  generalize arrM m c = M
  rfl

/-- The kernel's program, read: every weakly fair execution ends with the result at the common last steps of the reset
    zero plus the masked total and of the mask rows, and with the three arguments unchanged. -/
theorem run : θ_run defs (onTc (τ := τ) (main (F := Ideal))) ⟨m, fun _ => 0, ρ⟩ fun r => ∀ c : Dev nD,
      r.2.mem ((c : Thread nD τ).loc main_v20)
          = lastSteps reducesTo_S256x512_S_d0_1 h_S_ (fun _ => zero + total (arrA m c) (arrM m c)) (arrM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v20 (Pipeline.mem_restRefs_of main_v20 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KernelValue

end
-- ==== Proof.RefSide.lean ====
/-
  The reference, read at an index: its sum over both axes of (the host's column sums of the matrices) × (the mask rows)
  is the reset zero plus the masked total of the matrices and the mask rows — the host's sum of a 256 × 512 array
  taken row by row, its sum over the middle axis of the matrices taken coordinate by coordinate.
-/
import proofs.«181449_j82240033784129_1_alg».proof.Proof.Gen.ReferenceIdeal.Read
import proofs.«181449_j82240033784129_1_alg».proof.Proof.Total
import Idealize.ShloMosaic.Lib.ValueIdx
import Idealize.ShloMosaic.PureOps.Ideal.Laws

noncomputable section

namespace Cert.ReferenceIdeal.RefSide

open Cert.ReferenceIdeal Cert.ReferenceIdeal.Read Cert.Total Idealize.ShloMosaic Idealize.ShloMosaic.ValueIdx

/-- The source index of the host's middle-axis sum at `(b, j)` with coordinate `k` is `(b, k, j)`. -/
theorem idx_v14 (b : Fin 256) (j k : Fin 512) : idx_main_v14 (ix2 b j) k = ix3 b k j :=
  funext fun a => Fin.ext (by match a with | ⟨0, _⟩ => rfl | ⟨1, _⟩ => rfl | ⟨2, _⟩ => rfl)

/-- The reference's masked sum, before its common last steps: the reset zero plus the masked total. -/
theorem val_main_v16_total (x0 : (⟨S256x512x512, .f32⟩ : BufTy).Contents (Elt Ideal))
    (x1 : (⟨S16x512, .f32⟩ : BufTy).Contents (Elt Ideal)) (x2 : (⟨S256, .i32⟩ : BufTy).Contents (Elt Ideal)) (i : S_.Idx) :
    val_main_v16 (F := Ideal) x0 x1 x2 i
      = Ideal.ofBits .f32 0x00000000#32 + total x0 (val_main_v13 (F := Ideal) x1 x2) := by
  rw [val_main_v16_apply]
  refine congrArg₂ (· + ·) rfl ?_
  rw [sum_idx2]
  unfold total
  refine Finset.sum_congr rfl fun b _ => Finset.sum_congr rfl fun j _ => ?_
  rw [val_main_v15_apply, val_main_v14_apply]
  show (Ideal.ofBits .f32 0x00000000#32 + ∑ k : Fin 512, x0 (idx_main_v14 (ix2 b j) k)) * _ = _
  rw [Ideal.ofBits_zero_f32, zero_add]
  exact congrArg (· * val_main_v13 (F := Ideal) x1 x2 (ix2 b j)) (Finset.sum_congr rfl fun k _ => congrArg x0 (idx_v14 b j k))

/-- The reference's result: the common last steps of the reset zero plus the masked total and of its mask rows. -/
theorem val_main_v21_last (x0 : (⟨S256x512x512, .f32⟩ : BufTy).Contents (Elt Ideal))
    (x1 : (⟨S16x512, .f32⟩ : BufTy).Contents (Elt Ideal)) (x2 : (⟨S256, .i32⟩ : BufTy).Contents (Elt Ideal)) :
    val_main_v21 (F := Ideal) x0 x1 x2
      = lastSteps Facts₀.reducesTo_S256x512_S_d0_1 Facts₀.h_S_
          (fun _ => Ideal.ofBits .f32 0x00000000#32 + total x0 (val_main_v13 (F := Ideal) x1 x2)) (val_main_v13 (F := Ideal) x1 x2) := by
  have h16 : val_main_v16 (F := Ideal) x0 x1 x2
      = fun _ => Ideal.ofBits .f32 0x00000000#32 + total x0 (val_main_v13 (F := Ideal) x1 x2) :=
    funext fun i => val_main_v16_total x0 x1 x2 i
  unfold val_main_v21 val_main_v20 val_main_v19 val_main_v18 val_main_v17
  rw [h16]
  generalize val_main_v13 (F := Ideal) x1 x2 = M
  generalize total x0 M = T
  rfl

end Cert.ReferenceIdeal.RefSide

end
-- ==== Proof.Mask.lean ====
/-
  The mask rows the kernel's program hands its region are the reference's: both programs build them by the same host
  steps from the mask table and the regime indices (clip the index to the table, gather its row, zero the rows whose
  index was out of range).
-/
import proofs.«181449_j82240033784129_1_alg».proof.Proof.Gen.KernelIdeal.Frame
import proofs.«181449_j82240033784129_1_alg».proof.Proof.Gen.ReferenceIdeal.Read
import Idealize.ShloMosaic.Lib.StableHlo.Run

noncomputable section

namespace Cert.KernelIdeal.Mask

open Cert.KernelIdeal Cert.KernelIdeal.Gen
open Idealize.ShloMosaic Idealize.ShloMosaic.TcCoe Idealize.SL.Sem

variable (m : (ℓ : Loc nD τ sig) → Buf (Elt Ideal) ℓ)

set_option maxHeartbeats 2000000 in
/-- The mask rows as the region finds them are the reference's mask rows of the same two arguments. -/
theorem V_mask (c : Dev nD) :
    (V m c main_v13 : S256x512.Idx → EReal)
      = Cert.ReferenceIdeal.Read.val_main_v13 (F := Ideal) (m ((c : Thread nD τ).loc main_arg1)) (m ((c : Thread nD τ).loc main_arg2)) := by
  dsimp only [V, V0]
  simp only [hostOps0, hostOps0_1, hostOps0_2, List.flatten_cons, List.flatten_nil, List.append_nil, List.cons_append,
    List.nil_append]
  after_results_simp
  rfl

end Cert.KernelIdeal.Mask

end
-- ==== Proof.lean ====
/-
  The kernel sums, over 256 square matrices `A_b` of order 512, the column sums `∑ i, A_b (i, j)` weighted by the mask
  row `M (b, j)` that the regime index of `b` selects (a row of the mask table, or zeros when the index is out of
  range), and divides the sum by the number of mask entries when that number is positive. It walks the matrices sixteen
  at a time: a one-entry accumulator, reset to zero at the first of the sixteen grid points, gains at each point the
  masked sum of that point's sixteen matrices (column sums over the middle axis, times the mask block, summed over the
  lanes of each row and then down the rows), and after the last point it is copied to the one-entry output, which the
  host steps after the region reshape to a scalar and divide. The reference builds the same mask rows by the same host
  steps, sums every matrix's columns at once, multiplies by the mask rows, sums over both axes, and divides in the same
  way.

  At the exact values the two agree because a sum over the 256 rows is the sum over the sixteen groups of sixteen
  consecutive rows of the sums inside each group — addition of extended reals is commutative and associative, and no
  other law is used, so finiteness of the inputs is never needed. The steps:
    * the body's one arithmetic payload is the accumulator's entry plus the block's masked sum (BlockSum);
    * each of the three control cases of the body (first point, middle point, last point) leaves that payload in the
      accumulator, and the last point leaves it in the output block as well (Pieces);
    * by induction on the grid point, after point `n` the accumulator is the reset zero plus the masked sums of points
      `0 … n` (Accum);
    * the blocks at point `t` are rows `16 t … 16 t + 15` of the two arrays, so the sixteen masked sums add up to the
      masked total over all rows (Blocks, LibRows);
    * the one write-back covers the one-entry output array, and the host steps after the region apply the common last
      steps to it (KernelValue);
    * the reference's sum over both axes is the same zero plus the same masked total, followed by the same last steps
      (RefSide), and the two programs' mask rows are one term of the arguments (Mask).
  The idealization rewrote nothing, so the kernel is its own idealization; the three frames are the generated frame runs
  (the reference's is its generated run with the result dropped).
-/
import proofs.«181449_j82240033784129_1_alg».proof.Defs
import proofs.«181449_j82240033784129_1_alg».proof.Proof.Gen.Kernel
import proofs.«181449_j82240033784129_1_alg».proof.Proof.Gen.Kernel.Frame
import proofs.«181449_j82240033784129_1_alg».proof.Proof.Gen.KernelIdeal
import proofs.«181449_j82240033784129_1_alg».proof.Proof.Gen.KernelIdeal.Frame
import proofs.«181449_j82240033784129_1_alg».proof.Proof.Gen.ReferenceIdeal
import proofs.«181449_j82240033784129_1_alg».proof.Proof.Gen.ReferenceIdeal.Run
import proofs.«181449_j82240033784129_1_alg».proof.Proof.Gen.ReferenceIdeal.Read
import proofs.«181449_j82240033784129_1_alg».proof.Proof.Gen.Pre_finite_inputs
import proofs.«181449_j82240033784129_1_alg».proof.Proof.KernelValue
import proofs.«181449_j82240033784129_1_alg».proof.Proof.RefSide
import proofs.«181449_j82240033784129_1_alg».proof.Proof.Mask
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the common last steps of (the reset zero plus the masked total of the matrices and the mask
    rows) and of the mask rows; the mask rows are the same term of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2,
    Cert.ReferenceIdeal.RefSide.val_main_v21_last]
  have hM := Cert.KernelIdeal.Mask.V_mask m c
  have hA := Cert.KernelIdeal.Gen.V_main_arg0 m c
  show _ = Cert.Total.lastSteps _ _ (fun _ => Cert.KernelIdeal.Accum.zero
    + Cert.Total.total (Cert.KernelIdeal.Gen.V m c Cert.KernelIdeal.main_arg0) (Cert.KernelIdeal.Gen.V m c Cert.KernelIdeal.main_v13))
    (Cert.KernelIdeal.Gen.V m c Cert.KernelIdeal.main_v13)
  rw [hM, hA]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
